-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn_part1 {F : FTy → Type} [FloatOps F] (main_arg4 : FVec F S8192x2048 .f32) (main_arg5 : FVec F S8192x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S8192x2048 : Shape := ⟨2, ![8192, 2048]⟩
abbrev S1x8192 : Shape := ⟨2, ![1, 8192]⟩
abbrev S256x2048 : Shape := ⟨2, ![256, 2048]⟩
abbrev S1x256 : Shape := ⟨2, ![1, 256]⟩
abbrev S256 : Shape := ⟨1, ![256]⟩
abbrev S256x512 : Shape := ⟨2, ![256, 512]⟩
abbrev S8192 : Shape := ⟨1, ![8192]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x8192, .f32⟩
  | .hbm, ⟨7, _⟩ => ⟨S8192, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x256, .f32⟩
  | .local _ .vmem, ⟨13, _⟩ => ⟨S1x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S256x2048_S256x512_0_0 : ∀ a, (![0, 0] : Fin 2 → Nat) a + S256x512.size a ≤ S256x2048.size a
  h_S256x512 : 0 < S256x512.numel
  reduces_S256x512_S256 : S256x512.Reduces [1] S256
  inb_S256x2048_S256x512_0_512 : ∀ a, (![0, 512] : Fin 2 → Nat) a + S256x512.size a ≤ S256x2048.size a
  inb_S256x2048_S256x512_0_1024 : ∀ a, (![0, 1024] : Fin 2 → Nat) a + S256x512.size a ≤ S256x2048.size a
  inb_S256x2048_S256x512_0_1536 : ∀ a, (![0, 1536] : Fin 2 → Nat) a + S256x512.size a ≤ S256x2048.size a
  inb_S1x256_S1x256_0_0 : ∀ a, (![0, 0] : Fin 2 → Nat) a + S1x256.size a ≤ S1x256.size a
  h_S1x256 : 0 < S1x256.numel
  shapeCasts_S1x256_S256 : S1x256.ShapeCasts S256
  shapeCasts_S256_S1x256 : S256.ShapeCasts S1x256
  shapeCasts_S1x8192_S8192 : S1x8192.ShapeCasts S8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x8192.size a
  hwx0_6 : ∀ i : grid0.Coords, EltTy.bits .f32 = 32 ∨ (Rect.block (s := S1x8192) S1x256.size (cc0_transform_6 i) (hinb0_6 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel

variable [Facts₀]

class Facts : Prop extends Facts₀ where

variable [Facts]
-- ==== Proof.LibChunkSum.lean ====
/-
  A sum over `a * n` consecutive indices, cut into `a` chunks of `n`.

  In a commutative additive monoid the sum over `Fin (a * n)` is the sum over the chunks `c < a` of the sums over the
  positions `j < n` inside a chunk, position `j` of chunk `c` being index `n * c + j`. Only commutativity and
  associativity of addition are used, so the statement holds on the extended reals at the infinities too. The
  four-chunk corollary is the form a running total takes: start at zero, add the first chunk's sum, then the
  second's, the third's and the fourth's.
-/
import Mathlib.Algebra.BigOperators.Fin
import Mathlib.Logic.Equiv.Fin.Basic

namespace Cert.LibChunkSum

variable {M : Type*} [AddCommMonoid M]

/-- The sum over `Fin (a * n)` chunk by chunk: `col c j` is any spelling of index `n * c + j`. -/
theorem sum_chunks (a n : ℕ) (T : Fin (a * n) → M) (col : Fin a → Fin n → Fin (a * n))
    (hcol : ∀ c j, (col c j).val = n * c.val + j.val) :
    ∑ i, T i = ∑ c : Fin a, ∑ j : Fin n, T (col c j) := by
  rw [← Equiv.sum_comp finProdFinEquiv T, Fintype.sum_prod_type]
  refine Finset.sum_congr rfl fun c _ => Finset.sum_congr rfl fun j _ => congrArg T (Fin.ext ?_)
  rw [hcol]
  show j.val + n * c.val = n * c.val + j.val
  exact Nat.add_comm _ _

/-- A running total over four chunks, started at zero, is the whole sum. -/
theorem running_four (n : ℕ) (T : Fin (4 * n) → M) (col : Fin 4 → Fin n → Fin (4 * n))
    (hcol : ∀ c j, (col c j).val = n * c.val + j.val) :
    (((0 + ∑ j : Fin n, T (col 0 j)) + ∑ j : Fin n, T (col 1 j)) + ∑ j : Fin n, T (col 2 j)) + ∑ j : Fin n, T (col 3 j)
      = ∑ i, T i := by
  rw [sum_chunks 4 n T col hcol, Fin.sum_univ_four, zero_add]

end Cert.LibChunkSum
-- ==== Proof.Spec.lean ====
/-
  The function both programs compute, row by row.

  A row of the six arguments is six vectors of 2048 extended reals: the head's real and imaginary parts `hr`, `hi`,
  the relation's `rr`, `ri`, the tail's `tr`, `ti`. The head is rotated by the relation,
  `re = hr·rr − hi·ri`, `im = −(hi·rr + hr·ri)`, and the row's result is
  `(∑ re·tr + im·ti) / √((∑ re² + im²) · (∑ tr² + ti²))`, the sums over the 2048 columns. This is `score`.

  The kernel walks the columns in four chunks of 512, keeps three running totals that start at the zero word `z`,
  and writes the negation as `z − (…)`: that is `chunked z`. With `z = 0` the two agree: a running total over four
  consecutive chunks is the whole sum (commutativity and associativity of addition only, valid on the extended reals
  at the infinities too), and `0 − y = −y`.
-/
import Idealize.ShloMosaic.PureOps.Ideal
import proofs.«167961_j5179730559619_2_alg».proof.Proof.LibChunkSum

noncomputable section

namespace Cert.RotScore

open Idealize.ShloMosaic

/-- One row of one argument: its 2048 columns. -/
abbrev Row := Fin 2048 → EReal

/-- The real part of the rotated head at a column. -/
def rotRe (hr hi rr ri : Row) : Row := fun k => hr k * rr k - hi k * ri k

/-- The imaginary part of the rotated head at a column, the negation written as a subtraction from `z`. -/
def rotImFrom (z : EReal) (hr hi rr ri : Row) : Row := fun k => z - (hi k * rr k + hr k * ri k)

/-- The imaginary part of the rotated head at a column. -/
def rotIm (hr hi rr ri : Row) : Row := fun k => -(hi k * rr k + hr k * ri k)

/-- The rotated head against the tail at a column. -/
def cross (re im tr ti : Row) : Row := fun k => re k * tr k + im k * ti k

/-- The squared modulus of a complex entry at a column. -/
def sqMod (p q : Row) : Row := fun k => p k * p k + q k * q k

/-- The quotient of the cross sum by the root of the product of the two squared norms. -/
def quot (ab aa bb : EReal) : EReal := Ideal.div ab (Ideal.sqrt (aa * bb))

/-- The row's result: sums over all 2048 columns. -/
def score (hr hi rr ri tr ti : Row) : EReal :=
  quot (∑ k, cross (rotRe hr hi rr ri) (rotIm hr hi rr ri) tr ti k)
    (∑ k, sqMod (rotRe hr hi rr ri) (rotIm hr hi rr ri) k)
    (∑ k, sqMod tr ti k)

/-- Column `j` of chunk `c`. -/
def col (c : Fin 4) (j : Fin 512) : Fin 2048 := ⟨512 * c.val + j.val, by have := c.isLt; have := j.isLt; omega⟩

/-- A running total over the four chunks of 512 columns, started at `z`. -/
def running (z : EReal) (T : Row) : EReal :=
  (((z + ∑ j : Fin 512, T (col 0 j)) + ∑ j : Fin 512, T (col 1 j)) + ∑ j : Fin 512, T (col 2 j)) + ∑ j : Fin 512, T (col 3 j)

/-- The row's result as the kernel accumulates it: three running totals from the zero word `z`. -/
def chunked (z : EReal) (hr hi rr ri tr ti : Row) : EReal :=
  quot (running z (cross (rotRe hr hi rr ri) (rotImFrom z hr hi rr ri) tr ti))
    (running z (sqMod (rotRe hr hi rr ri) (rotImFrom z hr hi rr ri)))
    (running z (sqMod tr ti))

/-- A running total from zero over the four chunks is the sum over all columns. -/
theorem running_zero (T : Row) : running 0 T = ∑ k, T k :=
  Cert.LibChunkSum.running_four 512 T col (fun _ _ => rfl)

theorem rotImFrom_zero (hr hi rr ri : Row) : rotImFrom 0 hr hi rr ri = rotIm hr hi rr ri :=
  funext fun _ => zero_sub _

/-- With the zero word read as zero, the chunked accumulation is the row's result. -/
theorem chunked_zero (hr hi rr ri tr ti : Row) : chunked 0 hr hi rr ri tr ti = score hr hi rr ri tr ti := by
  unfold chunked score
  rw [running_zero, running_zero, running_zero, rotImFrom_zero]

end Cert.RotScore

end
-- ==== Proof.ScoreArray.lean ====
/-
  The result array as one function of the six argument arrays.

  An argument array has 8192 rows of 2048 columns; entry `b` of the result is the `score` of row `b` of the six
  arrays. The kernel writes it as one row of 8192 entries, which the program then reads as a vector of 8192; the
  reference computes the vector directly.
-/
import proofs.«167961_j5179730559619_2_alg».proof.Proof.Spec
import Idealize.ShloMosaic.Lib.ValueIdx

noncomputable section

namespace Cert.RotScore

open Idealize.ShloMosaic Idealize.ShloMosaic.ValueIdx

/-- An argument array: 8192 rows by 2048 columns of extended reals. -/
abbrev Arr := (⟨2, ![8192, 2048]⟩ : Shape).Idx → EReal

/-- Row `b` of an argument array. -/
def rowAt (a : Arr) (b : Fin 8192) : Row := fun k => a (ix2 b k)

/-- The result at row `b`. -/
def rowScore (a0 a1 a2 a3 a4 a5 : Arr) (b : Fin 8192) : EReal :=
  score (rowAt a0 b) (rowAt a1 b) (rowAt a2 b) (rowAt a3 b) (rowAt a4 b) (rowAt a5 b)

/-- The result laid out as one row of 8192 entries. -/
def scoreRow (a0 a1 a2 a3 a4 a5 : Arr) : (⟨2, ![1, 8192]⟩ : Shape).Idx → EReal :=
  fun i => rowScore a0 a1 a2 a3 a4 a5 (i 1)

/-- The result as a vector of 8192 entries. -/
def scoreVec (a0 a1 a2 a3 a4 a5 : Arr) : (⟨1, ![8192]⟩ : Shape).Idx → EReal :=
  fun i => rowScore a0 a1 a2 a3 a4 a5 (i 0)

end Cert.RotScore

end
-- ==== Proof.RefScore.lean ====
/-
  The reference computes `scoreVec`.

  Its last operation is the quotient of the cross sum by the root of the product of the two squared norms; each of
  the three sums is a host reduction over the 2048 columns from the zero word, which is zero; the summands are the
  pointwise products, read at `(b, k)`; the negation is the extended reals' negation.
-/
import proofs.«167961_j5179730559619_2_alg».proof.Proof.Gen.ReferenceIdeal.Read
import proofs.«167961_j5179730559619_2_alg».proof.Proof.ScoreArray
import Idealize.ShloMosaic.Lib.ValueIdx
import Idealize.ShloMosaic.PureOps.Ideal.Laws

noncomputable section

namespace Cert.ReferenceIdeal.RefScore

open Idealize.ShloMosaic Idealize.ShloMosaic.ValueIdx Cert.ReferenceIdeal Cert.RotScore

/-- The reference's last stage is `scoreVec` of its six arguments. -/
theorem val_eq (x0 x1 x2 x3 x4 x5 : (⟨S8192x2048, .f32⟩ : BufTy).Contents (Elt Ideal)) :
    Read.val_main_v21 (F := Ideal) x0 x1 x2 x3 x4 x5 = scoreVec x0 x1 x2 x3 x4 x5 := by
  funext i
  have e10 : ∀ k, Read.idx_main_v10 i k = ix2 (i 0) k := fun k =>
    funext fun a => Fin.ext (by match a with | ⟨0, _⟩ => rfl | ⟨1, _⟩ => rfl)
  have e14 : ∀ k, Read.idx_main_v14 i k = ix2 (i 0) k := fun k =>
    funext fun a => Fin.ext (by match a with | ⟨0, _⟩ => rfl | ⟨1, _⟩ => rfl)
  have e18 : ∀ k, Read.idx_main_v18 i k = ix2 (i 0) k := fun k =>
    funext fun a => Fin.ext (by match a with | ⟨0, _⟩ => rfl | ⟨1, _⟩ => rfl)
  rw [Read.val_main_v21_apply, Read.val_main_v10_apply, Read.val_main_v20_apply, Read.val_main_v19_apply,
    Read.val_main_v14_apply, Read.val_main_v18_apply]
  simp only [e10, e14, e18, Read.val_main_cst_apply, Read.val_main_cst_0_apply, Read.val_main_cst_1_apply,
    Ideal.ofBits_def, Ideal.ofBits_zero_f32, zero_add]
  rfl

end Cert.ReferenceIdeal.RefScore

end
-- ==== Proof.Payload.lean ====
/-
  What the kernel body leaves in its output block, entry by entry.

  At a grid point the body sees six blocks of 256 rows by 2048 columns and writes one block of 1 by 256: entry
  `(0, r)` is computed from row `r` of each of the six blocks alone. The body walks the 2048 columns in four chunks
  of 512; a chunk's loads read columns `512·c + j`; a lane reduction over a chunk is the sum over `j < 512`; the three
  running totals start at the zero word. So entry `(0, r)` is `chunked z` of the six rows, `z` the zero word, and
  since that word is zero it is the row's `score`.
-/
import proofs.«167961_j5179730559619_2_alg».proof.Proof.Gen.KernelIdeal.Frame
import proofs.«167961_j5179730559619_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen Cert.RotScore

/-- The zero word as an extended real. -/
abbrev z : EReal := Ideal.ofBits .f32 0x00000000#32

/-- Row `r` of a block: its 2048 columns. -/
def rowOf (x : Vec Ideal S256x2048 .f32) (r : Fin 256) : Row := fun k => x (ix2 r k)

/-- A lane reduction of a chunk at row `r` is the sum over the chunk's 512 columns. -/
theorem lane_sum (src : FVec Ideal S256x512 .f32) (r : Fin 256) :
    multiReduction .add [1] S256 src 0x00000000#32 reduces_S256x512_S256 (.inl rfl) rfl (ix1 r)
      = ∑ j : Fin 512, src (ix2 r j) :=
  (Ideal.multiReduction_add_single src _ reduces_S256x512_S256 (.inl rfl) rfl (ix1 r)).trans
    (Finset.sum_congr rfl fun j _ => congrArg src
      (funext fun a => Fin.ext (by match a with | ⟨0, _⟩ => rfl | ⟨1, _⟩ => rfl)))

/-- A load of the chunk that starts at column `o`, at `(r, j)`, reads column `o + j` of row `r`. -/
theorem ld_chunk (x : Vec Ideal S256x2048 .f32) (o : Nat) (inb) (r : Fin 256) (j : Fin 512) (k : Fin 2048)
    (hk : k.val = o + j.val) :
    View.ld x (Rect.unit (s := S256x2048) ![0, o] S256x512.size inb) (ix2 r j) = rowOf x r k := by
  show x _ = x (ix2 r k)
  refine congrArg x (funext fun a => Fin.ext ?_)
  match a with
  | ⟨0, _⟩ => show 0 + 1 * r.val = r.val; omega
  | ⟨1, _⟩ => show o + 1 * j.val = k.val; omega

theorem ld0 (x : Vec Ideal S256x2048 .f32) (r : Fin 256) (j : Fin 512) : View.ld x r0_0 (ix2 r j) = rowOf x r (col 0 j) :=
  ld_chunk x 0 _ r j _ (by show 512 * 0 + j.val = 0 + j.val; omega)
theorem ld1 (x : Vec Ideal S256x2048 .f32) (r : Fin 256) (j : Fin 512) : View.ld x r0_1 (ix2 r j) = rowOf x r (col 1 j) :=
  ld_chunk x 512 _ r j _ (by show 512 * 1 + j.val = 512 + j.val; omega)
theorem ld2 (x : Vec Ideal S256x2048 .f32) (r : Fin 256) (j : Fin 512) : View.ld x r0_2 (ix2 r j) = rowOf x r (col 2 j) :=
  ld_chunk x 1024 _ r j _ (by show 512 * 2 + j.val = 1024 + j.val; omega)
theorem ld3 (x : Vec Ideal S256x2048 .f32) (r : Fin 256) (j : Fin 512) : View.ld x r0_3 (ix2 r j) = rowOf x r (col 3 j) :=
  ld_chunk x 1536 _ r j _ (by show 512 * 3 + j.val = 1536 + j.val; omega)

/-! ## The body's three summands of a chunk, and its lane reductions -/

/-- The rotated head against the tail, pointwise on a chunk's six loaded blocks. -/
def crossB (v3 v4 v5 v6 v7 v8 : Vec Ideal S256x512 .f32) : FVec Ideal S256x512 .f32 :=
  fun p => (v3 p * v5 p - v4 p * v6 p) * v7 p + (z - (v4 p * v5 p + v3 p * v6 p)) * v8 p

/-- The squared modulus of the rotated head, pointwise on a chunk's four loaded blocks. -/
def rotSqB (v3 v4 v5 v6 : Vec Ideal S256x512 .f32) : FVec Ideal S256x512 .f32 :=
  fun p => (v3 p * v5 p - v4 p * v6 p) * (v3 p * v5 p - v4 p * v6 p)
    + (z - (v4 p * v5 p + v3 p * v6 p)) * (z - (v4 p * v5 p + v3 p * v6 p))

/-- The squared modulus of the tail, pointwise on a chunk's two loaded blocks. -/
def tailSqB (v7 v8 : Vec Ideal S256x512 .f32) : FVec Ideal S256x512 .f32 :=
  fun p => v7 p * v7 p + v8 p * v8 p

/-- The lane reduction of a chunk: one value per row. -/
def lanes (src : FVec Ideal S256x512 .f32) : FVec Ideal S256 .f32 :=
  multiReduction .add [1] S256 src 0x00000000#32 reduces_S256x512_S256 (.inl rfl) rfl

theorem hz : (![0, 0] : Fin 2 → Nat) = fun _ => 0 := funext fun a => by fin_cases a <;> rfl

/-- Entry `(u, r)` of the output block: the quotient of three running totals of lane reductions, each started at the
    zero word and fed the four chunks in order. -/
theorem out_lanes (x0 x1 x2 x3 x4 x5 : Vec Ideal S256x2048 .f32) (u : Fin 1) (r : Fin 256) :
    out0_6 x0 x1 x2 x3 x4 x5 (ix2 u r)
      = quot ((((z + lanes (crossB (View.ld x0 r0_0) (View.ld x1 r0_0) (View.ld x2 r0_0) (View.ld x3 r0_0) (View.ld x4 r0_0) (View.ld x5 r0_0)) (ix1 r)) + lanes (crossB (View.ld x0 r0_1) (View.ld x1 r0_1) (View.ld x2 r0_1) (View.ld x3 r0_1) (View.ld x4 r0_1) (View.ld x5 r0_1)) (ix1 r)) + lanes (crossB (View.ld x0 r0_2) (View.ld x1 r0_2) (View.ld x2 r0_2) (View.ld x3 r0_2) (View.ld x4 r0_2) (View.ld x5 r0_2)) (ix1 r)) + lanes (crossB (View.ld x0 r0_3) (View.ld x1 r0_3) (View.ld x2 r0_3) (View.ld x3 r0_3) (View.ld x4 r0_3) (View.ld x5 r0_3)) (ix1 r))
          ((((z + lanes (rotSqB (View.ld x0 r0_0) (View.ld x1 r0_0) (View.ld x2 r0_0) (View.ld x3 r0_0)) (ix1 r)) + lanes (rotSqB (View.ld x0 r0_1) (View.ld x1 r0_1) (View.ld x2 r0_1) (View.ld x3 r0_1)) (ix1 r)) + lanes (rotSqB (View.ld x0 r0_2) (View.ld x1 r0_2) (View.ld x2 r0_2) (View.ld x3 r0_2)) (ix1 r)) + lanes (rotSqB (View.ld x0 r0_3) (View.ld x1 r0_3) (View.ld x2 r0_3) (View.ld x3 r0_3)) (ix1 r))
          ((((z + lanes (tailSqB (View.ld x4 r0_0) (View.ld x5 r0_0)) (ix1 r)) + lanes (tailSqB (View.ld x4 r0_1) (View.ld x5 r0_1)) (ix1 r)) + lanes (tailSqB (View.ld x4 r0_2) (View.ld x5 r0_2)) (ix1 r)) + lanes (tailSqB (View.ld x4 r0_3) (View.ld x5 r0_3)) (ix1 r)) := by
  unfold out0_6
  rw [View.canon_unit_zero hz]
  unfold k0_pay1
  refine (shapeCast_a_1a_apply _ shapeCasts_S256_S1x256 u r).trans ?_
  rfl

/-! ## A chunk's summands as the row functions at the chunk's columns -/

theorem crossB_at (v3 v4 v5 v6 v7 v8 : Vec Ideal S256x512 .f32) (hr hi rr ri tr ti : Row) (r : Fin 256) (c : Fin 4)
    (j : Fin 512) (h3 : v3 (ix2 r j) = hr (col c j)) (h4 : v4 (ix2 r j) = hi (col c j))
    (h5 : v5 (ix2 r j) = rr (col c j)) (h6 : v6 (ix2 r j) = ri (col c j)) (h7 : v7 (ix2 r j) = tr (col c j))
    (h8 : v8 (ix2 r j) = ti (col c j)) :
    crossB v3 v4 v5 v6 v7 v8 (ix2 r j) = cross (rotRe hr hi rr ri) (rotImFrom z hr hi rr ri) tr ti (col c j) := by
  show (v3 _ * v5 _ - v4 _ * v6 _) * v7 _ + (z - (v4 _ * v5 _ + v3 _ * v6 _)) * v8 _ = _
  rw [h3, h4, h5, h6, h7, h8]
  rfl

theorem rotSqB_at (v3 v4 v5 v6 : Vec Ideal S256x512 .f32) (hr hi rr ri : Row) (r : Fin 256) (c : Fin 4)
    (j : Fin 512) (h3 : v3 (ix2 r j) = hr (col c j)) (h4 : v4 (ix2 r j) = hi (col c j))
    (h5 : v5 (ix2 r j) = rr (col c j)) (h6 : v6 (ix2 r j) = ri (col c j)) :
    rotSqB v3 v4 v5 v6 (ix2 r j) = sqMod (rotRe hr hi rr ri) (rotImFrom z hr hi rr ri) (col c j) := by
  show (v3 _ * v5 _ - v4 _ * v6 _) * (v3 _ * v5 _ - v4 _ * v6 _)
    + (z - (v4 _ * v5 _ + v3 _ * v6 _)) * (z - (v4 _ * v5 _ + v3 _ * v6 _)) = _
  rw [h3, h4, h5, h6]
  rfl

theorem tailSqB_at (v7 v8 : Vec Ideal S256x512 .f32) (tr ti : Row) (r : Fin 256) (c : Fin 4)
    (j : Fin 512) (h7 : v7 (ix2 r j) = tr (col c j)) (h8 : v8 (ix2 r j) = ti (col c j)) :
    tailSqB v7 v8 (ix2 r j) = sqMod tr ti (col c j) := by
  show v7 _ * v7 _ + v8 _ * v8 _ = _
  rw [h7, h8]
  rfl

theorem lanes_cross0 (x0 x1 x2 x3 x4 x5 : Vec Ideal S256x2048 .f32) (r : Fin 256) :
    lanes (crossB (View.ld x0 r0_0) (View.ld x1 r0_0) (View.ld x2 r0_0) (View.ld x3 r0_0) (View.ld x4 r0_0) (View.ld x5 r0_0)) (ix1 r)
      = ∑ j : Fin 512, cross (rotRe (rowOf x0 r) (rowOf x1 r) (rowOf x2 r) (rowOf x3 r))
          (rotImFrom z (rowOf x0 r) (rowOf x1 r) (rowOf x2 r) (rowOf x3 r)) (rowOf x4 r) (rowOf x5 r) (col 0 j) :=
  (lane_sum _ r).trans (Finset.sum_congr rfl fun j _ =>
    crossB_at _ _ _ _ _ _ _ _ _ _ _ _ r 0 j (ld0 x0 r j) (ld0 x1 r j) (ld0 x2 r j) (ld0 x3 r j) (ld0 x4 r j) (ld0 x5 r j))

theorem lanes_rotSq0 (x0 x1 x2 x3 x4 x5 : Vec Ideal S256x2048 .f32) (r : Fin 256) :
    lanes (rotSqB (View.ld x0 r0_0) (View.ld x1 r0_0) (View.ld x2 r0_0) (View.ld x3 r0_0)) (ix1 r)
      = ∑ j : Fin 512, sqMod (rotRe (rowOf x0 r) (rowOf x1 r) (rowOf x2 r) (rowOf x3 r))
          (rotImFrom z (rowOf x0 r) (rowOf x1 r) (rowOf x2 r) (rowOf x3 r)) (col 0 j) :=
  (lane_sum _ r).trans (Finset.sum_congr rfl fun j _ =>
    rotSqB_at _ _ _ _ _ _ _ _ r 0 j (ld0 x0 r j) (ld0 x1 r j) (ld0 x2 r j) (ld0 x3 r j))

theorem lanes_tailSq0 (x0 x1 x2 x3 x4 x5 : Vec Ideal S256x2048 .f32) (r : Fin 256) :
    lanes (tailSqB (View.ld x4 r0_0) (View.ld x5 r0_0)) (ix1 r) = ∑ j : Fin 512, sqMod (rowOf x4 r) (rowOf x5 r) (col 0 j) :=
  (lane_sum _ r).trans (Finset.sum_congr rfl fun j _ =>
    tailSqB_at _ _ _ _ r 0 j (ld0 x4 r j) (ld0 x5 r j))

theorem lanes_cross1 (x0 x1 x2 x3 x4 x5 : Vec Ideal S256x2048 .f32) (r : Fin 256) :
    lanes (crossB (View.ld x0 r0_1) (View.ld x1 r0_1) (View.ld x2 r0_1) (View.ld x3 r0_1) (View.ld x4 r0_1) (View.ld x5 r0_1)) (ix1 r)
      = ∑ j : Fin 512, cross (rotRe (rowOf x0 r) (rowOf x1 r) (rowOf x2 r) (rowOf x3 r))
          (rotImFrom z (rowOf x0 r) (rowOf x1 r) (rowOf x2 r) (rowOf x3 r)) (rowOf x4 r) (rowOf x5 r) (col 1 j) :=
  (lane_sum _ r).trans (Finset.sum_congr rfl fun j _ =>
    crossB_at _ _ _ _ _ _ _ _ _ _ _ _ r 1 j (ld1 x0 r j) (ld1 x1 r j) (ld1 x2 r j) (ld1 x3 r j) (ld1 x4 r j) (ld1 x5 r j))

theorem lanes_rotSq1 (x0 x1 x2 x3 x4 x5 : Vec Ideal S256x2048 .f32) (r : Fin 256) :
    lanes (rotSqB (View.ld x0 r0_1) (View.ld x1 r0_1) (View.ld x2 r0_1) (View.ld x3 r0_1)) (ix1 r)
      = ∑ j : Fin 512, sqMod (rotRe (rowOf x0 r) (rowOf x1 r) (rowOf x2 r) (rowOf x3 r))
          (rotImFrom z (rowOf x0 r) (rowOf x1 r) (rowOf x2 r) (rowOf x3 r)) (col 1 j) :=
  (lane_sum _ r).trans (Finset.sum_congr rfl fun j _ =>
    rotSqB_at _ _ _ _ _ _ _ _ r 1 j (ld1 x0 r j) (ld1 x1 r j) (ld1 x2 r j) (ld1 x3 r j))

theorem lanes_tailSq1 (x0 x1 x2 x3 x4 x5 : Vec Ideal S256x2048 .f32) (r : Fin 256) :
    lanes (tailSqB (View.ld x4 r0_1) (View.ld x5 r0_1)) (ix1 r) = ∑ j : Fin 512, sqMod (rowOf x4 r) (rowOf x5 r) (col 1 j) :=
  (lane_sum _ r).trans (Finset.sum_congr rfl fun j _ =>
    tailSqB_at _ _ _ _ r 1 j (ld1 x4 r j) (ld1 x5 r j))

theorem lanes_cross2 (x0 x1 x2 x3 x4 x5 : Vec Ideal S256x2048 .f32) (r : Fin 256) :
    lanes (crossB (View.ld x0 r0_2) (View.ld x1 r0_2) (View.ld x2 r0_2) (View.ld x3 r0_2) (View.ld x4 r0_2) (View.ld x5 r0_2)) (ix1 r)
      = ∑ j : Fin 512, cross (rotRe (rowOf x0 r) (rowOf x1 r) (rowOf x2 r) (rowOf x3 r))
          (rotImFrom z (rowOf x0 r) (rowOf x1 r) (rowOf x2 r) (rowOf x3 r)) (rowOf x4 r) (rowOf x5 r) (col 2 j) :=
  (lane_sum _ r).trans (Finset.sum_congr rfl fun j _ =>
    crossB_at _ _ _ _ _ _ _ _ _ _ _ _ r 2 j (ld2 x0 r j) (ld2 x1 r j) (ld2 x2 r j) (ld2 x3 r j) (ld2 x4 r j) (ld2 x5 r j))

theorem lanes_rotSq2 (x0 x1 x2 x3 x4 x5 : Vec Ideal S256x2048 .f32) (r : Fin 256) :
    lanes (rotSqB (View.ld x0 r0_2) (View.ld x1 r0_2) (View.ld x2 r0_2) (View.ld x3 r0_2)) (ix1 r)
      = ∑ j : Fin 512, sqMod (rotRe (rowOf x0 r) (rowOf x1 r) (rowOf x2 r) (rowOf x3 r))
          (rotImFrom z (rowOf x0 r) (rowOf x1 r) (rowOf x2 r) (rowOf x3 r)) (col 2 j) :=
  (lane_sum _ r).trans (Finset.sum_congr rfl fun j _ =>
    rotSqB_at _ _ _ _ _ _ _ _ r 2 j (ld2 x0 r j) (ld2 x1 r j) (ld2 x2 r j) (ld2 x3 r j))

theorem lanes_tailSq2 (x0 x1 x2 x3 x4 x5 : Vec Ideal S256x2048 .f32) (r : Fin 256) :
    lanes (tailSqB (View.ld x4 r0_2) (View.ld x5 r0_2)) (ix1 r) = ∑ j : Fin 512, sqMod (rowOf x4 r) (rowOf x5 r) (col 2 j) :=
  (lane_sum _ r).trans (Finset.sum_congr rfl fun j _ =>
    tailSqB_at _ _ _ _ r 2 j (ld2 x4 r j) (ld2 x5 r j))

theorem lanes_cross3 (x0 x1 x2 x3 x4 x5 : Vec Ideal S256x2048 .f32) (r : Fin 256) :
    lanes (crossB (View.ld x0 r0_3) (View.ld x1 r0_3) (View.ld x2 r0_3) (View.ld x3 r0_3) (View.ld x4 r0_3) (View.ld x5 r0_3)) (ix1 r)
      = ∑ j : Fin 512, cross (rotRe (rowOf x0 r) (rowOf x1 r) (rowOf x2 r) (rowOf x3 r))
          (rotImFrom z (rowOf x0 r) (rowOf x1 r) (rowOf x2 r) (rowOf x3 r)) (rowOf x4 r) (rowOf x5 r) (col 3 j) :=
  (lane_sum _ r).trans (Finset.sum_congr rfl fun j _ =>
    crossB_at _ _ _ _ _ _ _ _ _ _ _ _ r 3 j (ld3 x0 r j) (ld3 x1 r j) (ld3 x2 r j) (ld3 x3 r j) (ld3 x4 r j) (ld3 x5 r j))

theorem lanes_rotSq3 (x0 x1 x2 x3 x4 x5 : Vec Ideal S256x2048 .f32) (r : Fin 256) :
    lanes (rotSqB (View.ld x0 r0_3) (View.ld x1 r0_3) (View.ld x2 r0_3) (View.ld x3 r0_3)) (ix1 r)
      = ∑ j : Fin 512, sqMod (rotRe (rowOf x0 r) (rowOf x1 r) (rowOf x2 r) (rowOf x3 r))
          (rotImFrom z (rowOf x0 r) (rowOf x1 r) (rowOf x2 r) (rowOf x3 r)) (col 3 j) :=
  (lane_sum _ r).trans (Finset.sum_congr rfl fun j _ =>
    rotSqB_at _ _ _ _ _ _ _ _ r 3 j (ld3 x0 r j) (ld3 x1 r j) (ld3 x2 r j) (ld3 x3 r j))

theorem lanes_tailSq3 (x0 x1 x2 x3 x4 x5 : Vec Ideal S256x2048 .f32) (r : Fin 256) :
    lanes (tailSqB (View.ld x4 r0_3) (View.ld x5 r0_3)) (ix1 r) = ∑ j : Fin 512, sqMod (rowOf x4 r) (rowOf x5 r) (col 3 j) :=
  (lane_sum _ r).trans (Finset.sum_congr rfl fun j _ =>
    tailSqB_at _ _ _ _ r 3 j (ld3 x4 r j) (ld3 x5 r j))

/-! ## The output block -/

/-- Entry `y` of the output block is the chunked accumulation over row `y 1` of the six input blocks. -/
theorem out_chunked (x0 x1 x2 x3 x4 x5 : Vec Ideal S256x2048 .f32) (y : S1x256.Idx) :
    out0_6 x0 x1 x2 x3 x4 x5 y
      = chunked z (rowOf x0 (y 1)) (rowOf x1 (y 1)) (rowOf x2 (y 1)) (rowOf x3 (y 1)) (rowOf x4 (y 1)) (rowOf x5 (y 1)) := by
  obtain ⟨u, r, rfl⟩ : ∃ (u : Fin 1) (r : Fin 256), y = ix2 u r := ⟨y 0, y 1, eq_ix2 y⟩
  rw [out_lanes x0 x1 x2 x3 x4 x5 u r, lanes_cross0 x0 x1 x2 x3 x4 x5 r, lanes_rotSq0 x0 x1 x2 x3 x4 x5 r, lanes_tailSq0 x0 x1 x2 x3 x4 x5 r,
    lanes_cross1 x0 x1 x2 x3 x4 x5 r, lanes_rotSq1 x0 x1 x2 x3 x4 x5 r, lanes_tailSq1 x0 x1 x2 x3 x4 x5 r,
    lanes_cross2 x0 x1 x2 x3 x4 x5 r, lanes_rotSq2 x0 x1 x2 x3 x4 x5 r, lanes_tailSq2 x0 x1 x2 x3 x4 x5 r,
    lanes_cross3 x0 x1 x2 x3 x4 x5 r, lanes_rotSq3 x0 x1 x2 x3 x4 x5 r, lanes_tailSq3 x0 x1 x2 x3 x4 x5 r]
  rfl

/-- The zero word is zero, so the entry is the row's score. -/
theorem out_score (x0 x1 x2 x3 x4 x5 : Vec Ideal S256x2048 .f32) (y : S1x256.Idx) :
    out0_6 x0 x1 x2 x3 x4 x5 y
      = score (rowOf x0 (y 1)) (rowOf x1 (y 1)) (rowOf x2 (y 1)) (rowOf x3 (y 1)) (rowOf x4 (y 1)) (rowOf x5 (y 1)) := by
  rw [out_chunked, show z = 0 from Ideal.ofBits_zero_f32, chunked_zero]

end Cert.KernelIdeal.Body

end
-- ==== Proof.Blocks.lean ====
/-
  From the blocks to the result array.

  The grid has 32 points. At point `t` every input window's block is rows `256·t … 256·t + 255` of its array, all
  2048 columns, and the output window's block is columns `256·t … 256·t + 255` of the one-row result. Entry `(0, r)`
  of the block written back at `t` is the score of row `r` of the six input blocks, that is of row `256·t + r` of
  the six arrays: the block is the restriction of `scoreRow` of the arrays. The 32 blocks tile the 8192 columns
  (column `i` lies in the block of point `i / 256`), so after the last point the array is `scoreRow`.
-/
import proofs.«167961_j5179730559619_2_alg».proof.Proof.Payload
import proofs.«167961_j5179730559619_2_alg».proof.Proof.ScoreArray
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Body Cert.RotScore

variable (m : (ℓ : Loc nD τ sig) → Buf (Elt Ideal) ℓ)

/-- The printed index maps over the grid: an input window's block index is `(t, 0)`, the output window's `(0, t)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val :=
  (by decide +kernel : ∀ t : Fin grid0.N, _)

/-- Row `r` of input window 0's block at point `t` is row `256·t + r` of its array. -/
theorem iblk_row0 (c : Dev nD) (t : Fin cfg0.N) (r : Fin 256) (b : Fin 8192) (hb : b.val = t.val * 256 + r.val) :
    rowOf (iblk m c 0 t) r = rowAt (V m c main_arg0) b := by
  funext k
  show iblk m c 0 t (ix2 r k) = V m c main_arg0 (ix2 b k)
  unfold iblk
  rw [View.read_apply]
  show V m c main_arg0 _ = V m c main_arg0 _
  refine congrArg (V m c main_arg0) (funext fun a => Fin.ext ?_)
  obtain ⟨e00, e01, e10, e11, e20, e21, e30, e31, e40, e41, e50, e51, e60, e61⟩ := idx_facts t
  match a with
  | ⟨0, _⟩ => show win0_0.index t (0 : Fin 2) * 256 + 1 * r.val = b.val; omega
  | ⟨1, _⟩ => show win0_0.index t (1 : Fin 2) * 2048 + 1 * k.val = k.val; omega

/-- Row `r` of input window 1's block at point `t` is row `256·t + r` of its array. -/
theorem iblk_row1 (c : Dev nD) (t : Fin cfg0.N) (r : Fin 256) (b : Fin 8192) (hb : b.val = t.val * 256 + r.val) :
    rowOf (iblk m c 1 t) r = rowAt (V m c main_arg1) b := by
  funext k
  show iblk m c 1 t (ix2 r k) = V m c main_arg1 (ix2 b k)
  unfold iblk
  rw [View.read_apply]
  show V m c main_arg1 _ = V m c main_arg1 _
  refine congrArg (V m c main_arg1) (funext fun a => Fin.ext ?_)
  obtain ⟨e00, e01, e10, e11, e20, e21, e30, e31, e40, e41, e50, e51, e60, e61⟩ := idx_facts t
  match a with
  | ⟨0, _⟩ => show win0_1.index t (0 : Fin 2) * 256 + 1 * r.val = b.val; omega
  | ⟨1, _⟩ => show win0_1.index t (1 : Fin 2) * 2048 + 1 * k.val = k.val; omega

/-- Row `r` of input window 2's block at point `t` is row `256·t + r` of its array. -/
theorem iblk_row2 (c : Dev nD) (t : Fin cfg0.N) (r : Fin 256) (b : Fin 8192) (hb : b.val = t.val * 256 + r.val) :
    rowOf (iblk m c 2 t) r = rowAt (V m c main_arg2) b := by
  funext k
  show iblk m c 2 t (ix2 r k) = V m c main_arg2 (ix2 b k)
  unfold iblk
  rw [View.read_apply]
  show V m c main_arg2 _ = V m c main_arg2 _
  refine congrArg (V m c main_arg2) (funext fun a => Fin.ext ?_)
  obtain ⟨e00, e01, e10, e11, e20, e21, e30, e31, e40, e41, e50, e51, e60, e61⟩ := idx_facts t
  match a with
  | ⟨0, _⟩ => show win0_2.index t (0 : Fin 2) * 256 + 1 * r.val = b.val; omega
  | ⟨1, _⟩ => show win0_2.index t (1 : Fin 2) * 2048 + 1 * k.val = k.val; omega

/-- Row `r` of input window 3's block at point `t` is row `256·t + r` of its array. -/
theorem iblk_row3 (c : Dev nD) (t : Fin cfg0.N) (r : Fin 256) (b : Fin 8192) (hb : b.val = t.val * 256 + r.val) :
    rowOf (iblk m c 3 t) r = rowAt (V m c main_arg3) b := by
  funext k
  show iblk m c 3 t (ix2 r k) = V m c main_arg3 (ix2 b k)
  unfold iblk
  rw [View.read_apply]
  show V m c main_arg3 _ = V m c main_arg3 _
  refine congrArg (V m c main_arg3) (funext fun a => Fin.ext ?_)
  obtain ⟨e00, e01, e10, e11, e20, e21, e30, e31, e40, e41, e50, e51, e60, e61⟩ := idx_facts t
  match a with
  | ⟨0, _⟩ => show win0_3.index t (0 : Fin 2) * 256 + 1 * r.val = b.val; omega
  | ⟨1, _⟩ => show win0_3.index t (1 : Fin 2) * 2048 + 1 * k.val = k.val; omega

/-- Row `r` of input window 4's block at point `t` is row `256·t + r` of its array. -/
theorem iblk_row4 (c : Dev nD) (t : Fin cfg0.N) (r : Fin 256) (b : Fin 8192) (hb : b.val = t.val * 256 + r.val) :
    rowOf (iblk m c 4 t) r = rowAt (V m c main_arg4) b := by
  funext k
  show iblk m c 4 t (ix2 r k) = V m c main_arg4 (ix2 b k)
  unfold iblk
  rw [View.read_apply]
  show V m c main_arg4 _ = V m c main_arg4 _
  refine congrArg (V m c main_arg4) (funext fun a => Fin.ext ?_)
  obtain ⟨e00, e01, e10, e11, e20, e21, e30, e31, e40, e41, e50, e51, e60, e61⟩ := idx_facts t
  match a with
  | ⟨0, _⟩ => show win0_4.index t (0 : Fin 2) * 256 + 1 * r.val = b.val; omega
  | ⟨1, _⟩ => show win0_4.index t (1 : Fin 2) * 2048 + 1 * k.val = k.val; omega

/-- Row `r` of input window 5's block at point `t` is row `256·t + r` of its array. -/
theorem iblk_row5 (c : Dev nD) (t : Fin cfg0.N) (r : Fin 256) (b : Fin 8192) (hb : b.val = t.val * 256 + r.val) :
    rowOf (iblk m c 5 t) r = rowAt (V m c main_arg5) b := by
  funext k
  show iblk m c 5 t (ix2 r k) = V m c main_arg5 (ix2 b k)
  unfold iblk
  rw [View.read_apply]
  show V m c main_arg5 _ = V m c main_arg5 _
  refine congrArg (V m c main_arg5) (funext fun a => Fin.ext ?_)
  obtain ⟨e00, e01, e10, e11, e20, e21, e30, e31, e40, e41, e50, e51, e60, e61⟩ := idx_facts t
  match a with
  | ⟨0, _⟩ => show win0_5.index t (0 : Fin 2) * 256 + 1 * r.val = b.val; omega
  | ⟨1, _⟩ => show win0_5.index t (1 : Fin 2) * 2048 + 1 * k.val = k.val; omega

/-- What point `t` writes back is block `t` of `scoreRow` of the argument arrays. -/
theorem flushed_eq (c : Dev nD) (t : Fin cfg0.N) :
    (dats m 0 c).flushed 6 t
      = ((cfg0.win 6).blk t).view.read (Elt Ideal) (scoreRow (V m c main_arg0) (V m c main_arg1) (V m c main_arg2) (V m c main_arg3) (V m c main_arg4) (V m c main_arg5)) := by
  show (cfg0.win 6).cut (grid0.coords t) ((dats m 0 c).after 6 t) = _
  rw [after0_6]
  funext j
  show out0_6 (iblk m c 0 t) (iblk m c 1 t) (iblk m c 2 t) (iblk m c 3 t) (iblk m c 4 t) (iblk m c 5 t) j
    = scoreRow (V m c main_arg0) (V m c main_arg1) (V m c main_arg2) (V m c main_arg3) (V m c main_arg4) (V m c main_arg5) (((cfg0.win 6).blk t).view.emb j)
  refine (out_score (iblk m c 0 t) (iblk m c 1 t) (iblk m c 2 t) (iblk m c 3 t) (iblk m c 4 t) (iblk m c 5 t) j).trans ?_
  have hb : ((((cfg0.win 6).blk t).view.emb j) 1).val = t.val * 256 + (j 1).val := by
    obtain ⟨e00, e01, e10, e11, e20, e21, e30, e31, e40, e41, e50, e51, e60, e61⟩ := idx_facts t
    show win0_6.index t (1 : Fin 2) * 256 + 1 * (j 1).val = _
    omega
  show score _ _ _ _ _ _ = score _ _ _ _ _ _
  rw [iblk_row0 m c t (j 1) _ hb, iblk_row1 m c t (j 1) _ hb, iblk_row2 m c t (j 1) _ hb,
    iblk_row3 m c t (j 1) _ hb, iblk_row4 m c t (j 1) _ hb, iblk_row5 m c t (j 1) _ hb]

/-- An index of the result row is in point `t`'s block iff each coordinate is in the block's range on its axis. -/
theorem mem_blk (t : Fin cfg0.N) (i : S1x8192.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v0).slice (win0_6.rect t)).set ↔ _
  rw [View.set_slice_whole, Rect.mem_set_unit]
  exact Iff.rfl

/-- Every column of the result row lies in the block of point `column / 256`. -/
theorem cover (i : S1x8192.Idx) :
    ∃ t : Fin cfg0.N, (cfg0.win 6).flush t = true ∧ i ∈ ((cfg0.win 6).blk t).view.set := by
  have h0 : (i 0).val < 1 := (i 0).isLt
  have h1 : (i 1).val < 8192 := (i 1).isLt
  have hN : cfg0.N = 32 := N_0
  have hlt : (i 1).val / 256 < cfg0.N := by rw [hN]; omega
  refine ⟨⟨(i 1).val / 256, hlt⟩, flush0_6 _, ?_⟩
  rw [mem_blk]
  obtain ⟨e00, e01, e10, e11, e20, e21, e30, e31, e40, e41, e50, e51, e60, e61⟩ := idx_facts ⟨(i 1).val / 256, hlt⟩
  intro a
  match a with
  | ⟨0, _⟩ =>
    show win0_6.index ⟨(i 1).val / 256, hlt⟩ (0 : Fin 2) * 1 ≤ (i 0).val
      ∧ (i 0).val < win0_6.index ⟨(i 1).val / 256, hlt⟩ (0 : Fin 2) * 1 + 1
    rw [e60]; omega
  | ⟨1, _⟩ =>
    show win0_6.index ⟨(i 1).val / 256, hlt⟩ (1 : Fin 2) * 256 ≤ (i 1).val
      ∧ (i 1).val < win0_6.index ⟨(i 1).val / 256, hlt⟩ (1 : Fin 2) * 256 + 256
    rw [e61]
    show (i 1).val / 256 * 256 ≤ (i 1).val ∧ (i 1).val < (i 1).val / 256 * 256 + 256
    omega

/-- The result row after the last point is `scoreRow` of the argument arrays. -/
theorem final (c : Dev nD) :
    (dats m 0 c).arrAt 6 cfg0.N = scoreRow (V m c main_arg0) (V m c main_arg1) (V m c main_arg2) (V m c main_arg3) (V m c main_arg4) (V m c main_arg5) :=
  (dats m 0 c).arrAt_eq_of_cover 6 _ (fun t _ => flushed_eq m c t) cover

end Cert.KernelIdeal.Blocks

end
-- ==== Proof.KernelRun.lean ====
/-
  The kernel program's run, read.

  After the region the program reshapes the one-row result `[1, 8192]` into the vector `[8192]`: entry `b` of the
  vector is entry `(0, b)` of the row. The region leaves the row at `scoreRow` of the argument arrays, so the vector
  is `scoreVec` of them; the argument arrays are staged inputs and end as they began.
-/
import proofs.«167961_j5179730559619_2_alg».proof.Proof.Blocks
import Idealize.ShloMosaic.Lib.ValueLayout
import Idealize.ShloMosaic.Lib.StableHlo.Run

noncomputable section

namespace Cert.KernelIdeal.KernelRun

open Idealize.ShloMosaic Idealize.ShloMosaic.TcCoe Idealize.SL.Sem Idealize.ShloMosaic.ValueIdx
open Idealize.ShloMosaic.StableHlo
open Cert.KernelIdeal Cert.KernelIdeal.Gen Cert.RotScore

variable (m : (ℓ : Loc nD τ sig) → Buf (Elt Ideal) ℓ) (ρ : Dev nD → PrngReg)

/-- The one-row result read as a vector is `scoreVec`. -/
theorem reshape_scoreRow (a0 a1 a2 a3 a4 a5 : Arr) :
    shapeCast S8192 (scoreRow a0 a1 a2 a3 a4 a5) shapeCasts_S1x8192_S8192 = scoreVec a0 a1 a2 a3 a4 a5 := by
  funext i
  obtain ⟨b, rfl⟩ : ∃ b : Fin 8192, i = ix1 b := ⟨i 0, eq_ix1 i⟩
  exact (shapeCast_1a_a_apply _ _ b).trans rfl

/-- What the reshape after the region leaves in the result vector. -/
theorem tail_eq (c : Dev nD) :
    Pipeline.afterTail₀ cfgs (dats m) 0 (V0 m) [hostOps1] c main_v1
      = scoreVec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : Pipeline.withArrays (cfgs 0).spec c (V0 m c) (fun w => (dats m 0 c).arrAt w (cfgs 0).N) (Proc.tc.devRef main_v0)
      = scoreRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    (Pipeline.withArrays_arr spec0 launch0.win.arr_inj c (V0 m c) _ 6).trans (Blocks.final m c)
  unfold Pipeline.afterTail₀
  show StableHlo.after hostOps1 _ (Proc.devRef .tc main_v1) = _
  after_results
  show shapeCast S8192 (Pipeline.withArrays (cfgs 0).spec c (V0 m c) (fun w => (dats m 0 c).arrAt w (cfgs 0).N) (Proc.tc.devRef main_v0))
    shapeCasts_S1x8192_S8192 = _
  rw [e]
  exact reshape_scoreRow _ _ _ _ _ _

/-- Every weakly fair execution of the kernel program terminates with the result vector at `scoreVec` of the argument
    arrays and the argument arrays unchanged. -/
theorem run : θ_run defs (onTc (τ := τ) (main (F := Ideal))) ⟨m, fun _ => 0, ρ⟩ fun r => ∀ c : Dev nD,
      r.2.mem ((c.tc : Thread nD τ).loc main_v1) = scoreVec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c =>
    ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.KernelRun

end
-- ==== Proof.lean ====
/-
  The kernel and its reference compute, for each of 8192 rows, the same quotient.

  A row of the six arguments is the head `(hr, hi)`, the relation `(rr, ri)` and the tail `(tr, ti)`, 2048 columns
  each. With `re = hr·rr − hi·ri` and `im = −(hi·rr + hr·ri)` the row's result is
  `(∑ re·tr + im·ti) / √((∑ re² + im²) · (∑ tr² + ti²))`, the sums over the columns (`RotScore.score`).
  The reference computes this directly (`RefScore.val_eq`). The kernel takes 256 rows per grid point, walks the
  columns in four chunks of 512 with three running totals started at the zero word, writes the negation as a
  subtraction from the zero word, and lays the result out as one row of 8192 entries that the program reshapes into a
  vector (`Body.out_score`, `Blocks.final`, `KernelRun.run`). The two agree because a running total over consecutive
  chunks is the whole sum — commutativity and associativity of addition only, so no finiteness of the inputs is
  used — and because the zero word is zero.

  The three frames are the generated runs; the idealization rewrote nothing, so that conjunct is trivial.
-/
import proofs.«167961_j5179730559619_2_alg».proof.Defs
import proofs.«167961_j5179730559619_2_alg».proof.Proof.Gen.Kernel
import proofs.«167961_j5179730559619_2_alg».proof.Proof.Gen.Kernel.Skeleton
import proofs.«167961_j5179730559619_2_alg».proof.Proof.Gen.Kernel.Launch
import proofs.«167961_j5179730559619_2_alg».proof.Proof.Gen.Kernel.Points
import proofs.«167961_j5179730559619_2_alg».proof.Proof.Gen.Kernel.Frame
import proofs.«167961_j5179730559619_2_alg».proof.Proof.Gen.KernelIdeal
import proofs.«167961_j5179730559619_2_alg».proof.Proof.Gen.KernelIdeal.Skeleton
import proofs.«167961_j5179730559619_2_alg».proof.Proof.Gen.KernelIdeal.Launch
import proofs.«167961_j5179730559619_2_alg».proof.Proof.Gen.KernelIdeal.Points
import proofs.«167961_j5179730559619_2_alg».proof.Proof.Gen.KernelIdeal.Frame
import proofs.«167961_j5179730559619_2_alg».proof.Proof.Gen.ReferenceIdeal
import proofs.«167961_j5179730559619_2_alg».proof.Proof.Gen.ReferenceIdeal.Run
import proofs.«167961_j5179730559619_2_alg».proof.Proof.Gen.ReferenceIdeal.Read
import proofs.«167961_j5179730559619_2_alg».proof.Proof.Gen.Pre_finite_inputs
import proofs.«167961_j5179730559619_2_alg».proof.Proof.RefScore
import proofs.«167961_j5179730559619_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result vector at `scoreVec` of the (agreeing) argument arrays. -/
theorem algebraic : Cert.algebraic_KernelIdeal_ReferenceIdeal := by
  intro m ρ m' ρ' _ hagree
  refine ⟨fun c => Cert.RotScore.scoreVec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefScore.val_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
